-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 62
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S1x64, .f32⟩
  | .hbm, ⟨61, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The mathematics of the two programs, index by index, on the extended reals.

  One layer of the network takes a matrix of aggregated neighbour means `mean` and a matrix of node features `h`,
  both with 128 columns, two 128 x 128 weight matrices and a bias row, and returns

      layer mean h Wl Wr b (p, q) = max ( (sum_k mean(p,k) * Wl(k,q)  +  sum_k h(p,k) * Wr(k,q))  +  b(q) ) 0 .

  The last stage is one more product with a 128 x 64 matrix and a bias row,

      linear h W b (p, q) = sum_k h(p,k) * W(k,q)  +  b(q) .

  Row `p` of either result depends on row `p` of the row operands only: restricting the row operands to a block of
  rows and then applying the stage is the stage applied to the whole matrices, read in that block (`layer_rows`,
  `linear_rows`). That is all the tiling of the rows into blocks uses; no sum is regrouped and no factor is moved,
  so nothing here asks an entry to be finite.
-/
import Idealize.ShloMosaic.PureOps.Ideal
import Idealize.ShloMosaic.Lib.ValueIdx

noncomputable section

open scoped BigOperators

namespace Cert.Sage

open Idealize.ShloMosaic Idealize.ShloMosaic.ValueIdx

/-- A matrix of extended reals with `r` rows and `c` columns. -/
abbrev Mat (r c : Nat) : Type := (⟨2, ![r, c]⟩ : Shape).Idx → EReal
/-- A vector of extended reals of length `n`. -/
abbrev Row (n : Nat) : Type := (⟨1, ![n]⟩ : Shape).Idx → EReal

/-- One layer at row `p`, column `q`. -/
def layerAt {N : Nat} (mean h : Mat N 128) (Wl Wr : Mat 128 128) (b : Row 128) (p : Fin N) (q : Fin 128) : EReal :=
  max (((∑ k : Fin 128, mean (ix2 p k) * Wl (ix2 k q)) + (∑ k : Fin 128, h (ix2 p k) * Wr (ix2 k q))) + b (ix1 q)) 0

/-- One layer: the rectified sum of the two products and the bias. -/
def layer {N : Nat} (mean h : Mat N 128) (Wl Wr : Mat 128 128) (b : Row 128) : Mat N 128 :=
  fun i => layerAt mean h Wl Wr b (i 0) (i 1)

/-- The last stage at row `p`, column `q`. -/
def linearAt {N : Nat} (h : Mat N 128) (W : Mat 128 64) (b : Row 64) (p : Fin N) (q : Fin 64) : EReal :=
  (∑ k : Fin 128, h (ix2 p k) * W (ix2 k q)) + b (ix1 q)

/-- The last stage: a product and a bias. -/
def linear {N : Nat} (h : Mat N 128) (W : Mat 128 64) (b : Row 64) : Mat N 64 :=
  fun i => linearAt h W b (i 0) (i 1)

theorem layer_apply {N : Nat} (mean h : Mat N 128) (Wl Wr : Mat 128 128) (b : Row 128) (p : Fin N) (q : Fin 128) :
    layer mean h Wl Wr b (ix2 p q) = layerAt mean h Wl Wr b p q := rfl

theorem linear_apply {N : Nat} (h : Mat N 128) (W : Mat 128 64) (b : Row 64) (p : Fin N) (q : Fin 64) :
    linear h W b (ix2 p q) = linearAt h W b p q := rfl

/-- Rows `ρ 0, ρ 1, …` of the row operands, then a layer, is the layer read in those rows. -/
theorem layerAt_rows {N R : Nat} (ρ : Fin R → Fin N) (mean h : Mat N 128) (Wl Wr : Mat 128 128) (b : Row 128)
    (p : Fin R) (q : Fin 128) :
    layerAt (fun y : (⟨2, ![R, 128]⟩ : Shape).Idx => mean (ix2 (ρ (y 0)) (y 1)))
        (fun y : (⟨2, ![R, 128]⟩ : Shape).Idx => h (ix2 (ρ (y 0)) (y 1))) Wl Wr b p q
      = layerAt mean h Wl Wr b (ρ p) q := rfl

/-- Rows `ρ 0, ρ 1, …` of the row operand, then the last stage, is the last stage read in those rows. -/
theorem linearAt_rows {N R : Nat} (ρ : Fin R → Fin N) (h : Mat N 128) (W : Mat 128 64) (b : Row 64)
    (p : Fin R) (q : Fin 64) :
    linearAt (fun y : (⟨2, ![R, 128]⟩ : Shape).Idx => h (ix2 (ρ (y 0)) (y 1))) W b p q
      = linearAt h W b (ρ p) q := rfl

/-- The two layers and the last stage, from the two aggregated means. `agg` is the neighbour mean as a function of
    the feature matrix (both programs compute it by the same operations, so it stays a parameter here). -/
def net {N : Nat} (agg : Mat N 128 → Mat N 128) (x : Mat N 128) (W1l W1r : Mat 128 128) (b1 : Row 128)
    (W2l W2r : Mat 128 128) (b2 : Row 128) (Wlin : Mat 128 64) (blin : Row 64) : Mat N 64 :=
  linear (layer (agg (layer (agg x) x W1l W1r b1)) (layer (agg x) x W1l W1r b1) W2l W2r b2) Wlin blin

end Cert.Sage

end
-- ==== Proof.RefSpec.lean ====
/-
  The reference program, stage by stage, is the network of `Cert.Sage`.

  Its operations after each aggregation are two matrix products, their sum, a bias row broadcast over the rows, a
  sum and a maximum with a zero array: read at an index, one layer. The last three operations are a product, a
  broadcast bias row and a sum: the last stage. The aggregation itself (a gather of rows by the edges' sources, a
  scatter-add into the edges' targets, a product with the reciprocal of the clamped in-degree) is kept as ONE
  function `agg` of the feature matrix: the reference applies it to the features and again to the first layer's
  result, by the same operations.
-/
import proofs.«110334_j17300128268562_1_alg».proof.Proof.Gen.ReferenceIdeal.Read
import proofs.«110334_j17300128268562_1_alg».proof.Proof.Spec
import Idealize.ShloMosaic.Lib.ValueIdx
import Idealize.ShloMosaic.PureOps.Ideal.Laws

noncomputable section

open scoped BigOperators

namespace Cert.ReferenceIdeal.RefSpec

open Idealize.ShloMosaic Idealize.ShloMosaic.ValueIdx
open Cert.ReferenceIdeal Cert.ReferenceIdeal.Gen Cert.ReferenceIdeal.Read

/-- The aggregation as the reference's own operations, with the feature matrix `h` a parameter: the host gather of
    `h` at the index array the program computes from row 0 of the edge list `e`, the host scatter-add of that into a
    zero array at the index array it computes from row 1, and the product with the broadcast column the program
    computes from row 1 alone. What those host operations compute is never opened: both programs apply the same ones. -/
def agg (e : (⟨S2x1600000, .i32⟩ : BufTy).Contents (Elt Ideal)) (h : (⟨S100000x128, .f32⟩ : BufTy).Contents (Elt Ideal)) :
    (⟨S100000x128, .f32⟩ : BufTy).Contents (Elt Ideal) :=
  mulf (F := Ideal) (φ := .f32)
    (Host.scatterAdd (F := Ideal) scatter_S100000x128_S1600000x1_S1600000x128_1_0_0_1 (val_main_v20 (F := Ideal)) (val_main_v21 (F := Ideal) e)
      (Host.gather gather_S100000x128_S1600000x1_S1600000x128_1_0_n_n_0_1_1128 h (val_main_v18 (F := Ideal) e)))
    (val_main_v23 (F := Ideal) e)

/-- The first aggregation is `agg` of the features. -/
theorem v24_eq (x0 : (⟨S100000x128, .f32⟩ : BufTy).Contents (Elt Ideal)) (x1 : (⟨S2x1600000, .i32⟩ : BufTy).Contents (Elt Ideal)) :
    val_main_v24 (F := Ideal) x0 x1 = agg x1 x0 := by
  unfold val_main_v24 val_main_v22 val_main_v19 agg
  rfl

/-- The second aggregation is `agg` of the first layer's result. -/
theorem v43_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v43 (F := Ideal) x0 x1 x2 x3 x4 = agg x1 (val_main_v31 (F := Ideal) x0 x1 x2 x3 x4) := by
  unfold val_main_v43 val_main_v41 val_main_v38 agg
  have h39 : val_main_v39 (F := Ideal) = val_main_v20 (F := Ideal) := rfl
  have h40 : val_main_v40 (F := Ideal) x1 = val_main_v21 (F := Ideal) x1 := rfl
  have h42 : val_main_v42 (F := Ideal) x1 = val_main_v23 (F := Ideal) x1 := rfl
  have h37 : val_main_v37 (F := Ideal) x1 = val_main_v18 (F := Ideal) x1 := rfl
  rw [h39, h40, h42, h37]

/-- The first layer's result is one layer of the first aggregation and the features. -/
theorem v31_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v31 (F := Ideal) x0 x1 x2 x3 x4 = Cert.Sage.layer (val_main_v24 (F := Ideal) x0 x1) x0 x2 x3 x4 := by
  funext i
  have e1 : ∀ k, lidx_main_v25 i k = ix2 (i 0) k := fun k => funext fun a => by match a with | ⟨0, _⟩ => rfl | ⟨1, _⟩ => rfl
  have e2 : ∀ k, ridx_main_v25 i k = ix2 k (i 1) := fun k => funext fun a => by match a with | ⟨0, _⟩ => rfl | ⟨1, _⟩ => rfl
  have e3 : ∀ k, lidx_main_v26 i k = ix2 (i 0) k := fun k => funext fun a => by match a with | ⟨0, _⟩ => rfl | ⟨1, _⟩ => rfl
  have e4 : ∀ k, ridx_main_v26 i k = ix2 k (i 1) := fun k => funext fun a => by match a with | ⟨0, _⟩ => rfl | ⟨1, _⟩ => rfl
  have e5 : idx_main_v28 (idx_main_v29 i) = ix1 (i 1) := funext fun a => by match a with | ⟨0, _⟩ => rfl
  rw [val_main_v31_apply, val_main_v30_apply, val_main_v27_apply, val_main_v25_apply, val_main_v26_apply, val_main_v29_apply,
    val_main_v28_apply, val_main_call0_v0_apply, val_main_call0_cst_apply]
  simp only [e1, e2, e3, e4, e5]
  show max _ (Ideal.ofBits .f32 0x00000000#32) = _
  rw [Ideal.ofBits_zero_f32]
  rfl

/-- The second layer's result is one layer of the second aggregation and the first layer's result. -/
theorem v50_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v50 (F := Ideal) x0 x1 x2 x3 x4 x5 x6 x7
      = Cert.Sage.layer (val_main_v43 (F := Ideal) x0 x1 x2 x3 x4) (val_main_v31 (F := Ideal) x0 x1 x2 x3 x4) x5 x6 x7 := by
  funext i
  have e1 : ∀ k, lidx_main_v44 i k = ix2 (i 0) k := fun k => funext fun a => by match a with | ⟨0, _⟩ => rfl | ⟨1, _⟩ => rfl
  have e2 : ∀ k, ridx_main_v44 i k = ix2 k (i 1) := fun k => funext fun a => by match a with | ⟨0, _⟩ => rfl | ⟨1, _⟩ => rfl
  have e3 : ∀ k, lidx_main_v45 i k = ix2 (i 0) k := fun k => funext fun a => by match a with | ⟨0, _⟩ => rfl | ⟨1, _⟩ => rfl
  have e4 : ∀ k, ridx_main_v45 i k = ix2 k (i 1) := fun k => funext fun a => by match a with | ⟨0, _⟩ => rfl | ⟨1, _⟩ => rfl
  have e5 : idx_main_v47 (idx_main_v48 i) = ix1 (i 1) := funext fun a => by match a with | ⟨0, _⟩ => rfl
  rw [val_main_v50_apply, val_main_v49_apply, val_main_v46_apply, val_main_v44_apply, val_main_v45_apply, val_main_v48_apply,
    val_main_v47_apply, val_main_call1_v0_apply, val_main_call1_cst_apply]
  simp only [e1, e2, e3, e4, e5]
  show max _ (Ideal.ofBits .f32 0x00000000#32) = _
  rw [Ideal.ofBits_zero_f32]
  rfl

/-- The result is the last stage of the second layer's result. -/
theorem v54_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    val_main_v54 (F := Ideal) x0 x1 x2 x3 x4 x5 x6 x7 x8 x9
      = Cert.Sage.linear (val_main_v50 (F := Ideal) x0 x1 x2 x3 x4 x5 x6 x7) x8 x9 := by
  funext i
  have e1 : ∀ k, lidx_main_v51 i k = ix2 (i 0) k := fun k => funext fun a => by match a with | ⟨0, _⟩ => rfl | ⟨1, _⟩ => rfl
  have e2 : ∀ k, ridx_main_v51 i k = ix2 k (i 1) := fun k => funext fun a => by match a with | ⟨0, _⟩ => rfl | ⟨1, _⟩ => rfl
  have e5 : idx_main_v52 (idx_main_v53 i) = ix1 (i 1) := funext fun a => by match a with | ⟨0, _⟩ => rfl
  rw [val_main_v54_apply, val_main_v51_apply, val_main_v53_apply, val_main_v52_apply]
  simp only [e1, e2, e5]
  rfl

/-- THE REFERENCE'S RESULT is the network of its arguments, over its own aggregation. -/
theorem result_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    val_main_v54 (F := Ideal) x0 x1 x2 x3 x4 x5 x6 x7 x8 x9 = Cert.Sage.net (agg x1) x0 x2 x3 x4 x5 x6 x7 x8 x9 := by
  rw [v54_eq, v50_eq, v43_eq, v31_eq, v24_eq]
  rfl

end Cert.ReferenceIdeal.RefSpec

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.Payload.lean ====
/-
  What each kernel body stores, as a function of the blocks it loads, on the extended reals.

  The first body loads a 5000 x 128 block `a` of aggregated means, the same rows `x` of the features, two
  128 x 128 weight matrices and a 1 x 128 bias, narrows the four matrices to a shorter float format (the identity
  on the extended reals), forms the two products into zero accumulators, adds them, adds the bias row to every row
  and takes the maximum with zero: one layer of `Cert.Sage` on those 5000 rows, the bias read in its one row.
  The second body does the same and then multiplies the rectified block by a 128 x 64 matrix and adds a 1 x 64 bias
  row: the layer followed by the last stage, on those 5000 rows.

  A product into a zero accumulator read at (p, q) is the sum over k of lhs(p,k) * rhs(k,q); a 1 x b row broadcast
  over the rows reads its one row at the column.
-/
import proofs.«110334_j17300128268562_1_alg».proof.Proof.Gen.KernelIdeal.Skeleton
import proofs.«110334_j17300128268562_1_alg».proof.Proof.Spec
import proofs.«110334_j17300128268562_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx
open Cert.KernelIdeal Cert.KernelIdeal.Gen Cert.LibPlainDot

/-- The one row of a 1 x n array, as a vector. -/
def rowOf {n : Nat} (b : (⟨2, ![1, n]⟩ : Shape).Idx → EReal) : Cert.Sage.Row n := fun j => b (ix2 (0 : Fin 1) (j 0))

theorem rowOf_apply {n : Nat} (b : (⟨2, ![1, n]⟩ : Shape).Idx → EReal) (q : Fin n) : rowOf b (ix1 q) = b (ix2 (0 : Fin 1) q) := rfl

/-- The side condition of a plain `[R, K] x [K, C]` product, with the dimension lists spelt out. -/
abbrev PlainWF (R K C : Nat) : Prop := DotDims.WF ⟨2, ![R, K]⟩ ⟨2, ![K, C]⟩ ⟨2, ![R, C]⟩ [1] [0] [0] [1] [] []

/-- The rectified block at (p, q), for any operands: the two products into zero accumulators, their sum, the
    bias row over every row, the maximum with a zero block. -/
theorem relu_block (wf : PlainWF 5000 128 128) (a x : FVec Ideal S5000x128 .f32) (wl wr : FVec Ideal S128x128 .f32)
    (b : FVec Ideal S1x128 .f32)
    (hlt : FTy.bits .bf16 < FTy.bits .f32) (hb : S1x128.ShapeCasts S1x128) (hbb : S1x128.Broadcasts S5000x128)
    (p : Fin 5000) (q : Fin 128) :
    maximumf (F := Ideal) (addf (F := Ideal) (addf (F := Ideal)
          (FloatOps.matmul (F := Ideal) (plainDot 5000 128 128 wf) none
            (truncf (F := Ideal) .bf16 a hlt) (truncf (F := Ideal) .bf16 wl hlt) (constant (F := Ideal) S5000x128 .f32 0x00000000#32))
          (FloatOps.matmul (F := Ideal) (plainDot 5000 128 128 wf) none
            (truncf (F := Ideal) .bf16 x hlt) (truncf (F := Ideal) .bf16 wr hlt) (constant (F := Ideal) S5000x128 .f32 0x00000000#32)))
        (broadcastTo S5000x128 (shapeCast S1x128 b hb) hbb))
      (broadcast S5000x128 (Scalar.ofBits (F := Ideal) .f32 0x00000000#32)) (ix2 p q)
    = Cert.Sage.layerAt a x wl wr (rowOf b) p q := by
  show max ((FloatOps.matmul (F := Ideal) (plainDot 5000 128 128 wf) none
        (truncf (F := Ideal) .bf16 a hlt) (truncf (F := Ideal) .bf16 wl hlt) (constant (F := Ideal) S5000x128 .f32 0x00000000#32) (ix2 p q)
      + FloatOps.matmul (F := Ideal) (plainDot 5000 128 128 wf) none
        (truncf (F := Ideal) .bf16 x hlt) (truncf (F := Ideal) .bf16 wr hlt) (constant (F := Ideal) S5000x128 .f32 0x00000000#32) (ix2 p q))
      + broadcastTo S5000x128 (shapeCast S1x128 b hb) hbb (ix2 p q)) (Ideal.ofBits .f32 0x00000000#32) = _
  rw [matmul_zero_apply, matmul_zero_apply, broadcastTo_1b_ab_apply, shapeCast_self, Ideal.ofBits_zero_f32]
  rfl

/-- A product into a zero accumulator and a bias row over every row, at (p, q), for any operands. -/
theorem linear_block (wf : PlainWF 5000 128 64) (h : FVec Ideal S5000x128 .f32) (w : FVec Ideal S128x64 .f32)
    (bl : FVec Ideal S1x64 .f32)
    (hlt : FTy.bits .bf16 < FTy.bits .f32) (hb : S1x64.ShapeCasts S1x64) (hbb : S1x64.Broadcasts S5000x64)
    (p : Fin 5000) (q : Fin 64) :
    addf (F := Ideal) (FloatOps.matmul (F := Ideal) (plainDot 5000 128 64 wf) none
          (truncf (F := Ideal) .bf16 h hlt) (truncf (F := Ideal) .bf16 w hlt) (constant (F := Ideal) S5000x64 .f32 0x00000000#32))
        (broadcastTo S5000x64 (shapeCast S1x64 bl hb) hbb) (ix2 p q)
    = Cert.Sage.linearAt h w (rowOf bl) p q := by
  show FloatOps.matmul (F := Ideal) (plainDot 5000 128 64 wf) none
        (truncf (F := Ideal) .bf16 h hlt) (truncf (F := Ideal) .bf16 w hlt) (constant (F := Ideal) S5000x64 .f32 0x00000000#32) (ix2 p q)
      + broadcastTo S5000x64 (shapeCast S1x64 bl hb) hbb (ix2 p q) = _
  rw [matmul_zero_apply, broadcastTo_1b_ab_apply, shapeCast_self]
  rfl

/-- The first body's stored block at (p, q): one layer on the loaded rows. -/
theorem pay0_apply (a x : Vec Ideal S5000x128 .f32) (wl wr : Vec Ideal S128x128 .f32) (b : Vec Ideal S1x128 .f32)
    (p : Fin 5000) (q : Fin 128) :
    k0_pay1 (F := Ideal) a x wl wr b (ix2 p q) = Cert.Sage.layerAt a x wl wr (rowOf b) p q := by
  refine (relu_block dot_S5000x128_S128x128_S5000x128_1_0_0_1_n_n.wf
    (shapeCast S5000x128 a Facts₀.shapeCasts_S5000x128_S5000x128) x wl wr b Facts₀.bitsLt_bf16_f32
    Facts₀.shapeCasts_S1x128_S1x128 Facts₀.broadcasts_S1x128_S5000x128 p q).trans ?_
  rw [shapeCast_self]

/-- The first body's stored block is one layer on the loaded rows. -/
theorem pay0_eq (a x : Vec Ideal S5000x128 .f32) (wl wr : Vec Ideal S128x128 .f32) (b : Vec Ideal S1x128 .f32) :
    k0_pay1 (F := Ideal) a x wl wr b = Cert.Sage.layer a x wl wr (rowOf b) := by
  funext j
  rw [eq_ix2 j]
  exact pay0_apply a x wl wr b (j 0) (j 1)

/-- The rectified block inside the second body, as a whole block: the layer on the loaded rows. -/
theorem hidden_eq (a x : Vec Ideal S5000x128 .f32) (wl wr : Vec Ideal S128x128 .f32) (b : Vec Ideal S1x128 .f32) :
    maximumf (F := Ideal) (addf (F := Ideal) (addf (F := Ideal)
          (FloatOps.matmul (F := Ideal) (plainDot 5000 128 128 dot_S5000x128_S128x128_S5000x128_1_0_0_1_n_n.wf) none
            (truncf (F := Ideal) .bf16 (shapeCast S5000x128 a Facts₀.shapeCasts_S5000x128_S5000x128) Facts₀.bitsLt_bf16_f32)
            (truncf (F := Ideal) .bf16 wl Facts₀.bitsLt_bf16_f32) (constant (F := Ideal) S5000x128 .f32 0x00000000#32))
          (FloatOps.matmul (F := Ideal) (plainDot 5000 128 128 dot_S5000x128_S128x128_S5000x128_1_0_0_1_n_n.wf) none
            (truncf (F := Ideal) .bf16 (shapeCast S5000x128 x Facts₀.shapeCasts_S5000x128_S5000x128) Facts₀.bitsLt_bf16_f32)
            (truncf (F := Ideal) .bf16 wr Facts₀.bitsLt_bf16_f32) (constant (F := Ideal) S5000x128 .f32 0x00000000#32)))
        (broadcastTo S5000x128 (shapeCast S1x128 b Facts₀.shapeCasts_S1x128_S1x128) Facts₀.broadcasts_S1x128_S5000x128))
      (broadcast S5000x128 (Scalar.ofBits (F := Ideal) .f32 0x00000000#32))
      = Cert.Sage.layer a x wl wr (rowOf b) := by
  funext j
  rw [eq_ix2 j]
  refine (relu_block dot_S5000x128_S128x128_S5000x128_1_0_0_1_n_n.wf
    (shapeCast S5000x128 a Facts₀.shapeCasts_S5000x128_S5000x128)
    (shapeCast S5000x128 x Facts₀.shapeCasts_S5000x128_S5000x128) wl wr b Facts₀.bitsLt_bf16_f32
    Facts₀.shapeCasts_S1x128_S1x128 Facts₀.broadcasts_S1x128_S5000x128 (j 0) (j 1)).trans ?_
  rw [shapeCast_self, shapeCast_self]
  rfl

/-- The second body's stored block at (p, q): the layer, then the last stage, on the loaded rows. -/
theorem pay1_apply (a x : Vec Ideal S5000x128 .f32) (wl wr : Vec Ideal S128x128 .f32) (b : Vec Ideal S1x128 .f32)
    (w : Vec Ideal S128x64 .f32) (bl : Vec Ideal S1x64 .f32) (p : Fin 5000) (q : Fin 64) :
    k1_pay1 (F := Ideal) a x wl wr b w bl (ix2 p q)
      = Cert.Sage.linearAt (Cert.Sage.layer a x wl wr (rowOf b)) w (rowOf bl) p q := by
  rw [← hidden_eq a x wl wr b]
  exact linear_block dot_S5000x128_S128x64_S5000x64_1_0_0_1_n_n.wf _ w bl Facts₀.bitsLt_bf16_f32
    Facts₀.shapeCasts_S1x64_S1x64 Facts₀.broadcasts_S1x64_S5000x64 p q

/-- The second body's stored block is the layer followed by the last stage on the loaded rows. -/
theorem pay1_eq (a x : Vec Ideal S5000x128 .f32) (wl wr : Vec Ideal S128x128 .f32) (b : Vec Ideal S1x128 .f32)
    (w : Vec Ideal S128x64 .f32) (bl : Vec Ideal S1x64 .f32) :
    k1_pay1 (F := Ideal) a x wl wr b w bl = Cert.Sage.linear (Cert.Sage.layer a x wl wr (rowOf b)) w (rowOf bl) := by
  funext j
  rw [eq_ix2 j]
  exact pay1_apply a x wl wr b w bl (j 0) (j 1)

end Cert.KernelIdeal.Pay

end
-- ==== Proof.Blocks0.lean ====
/-
  The first region's result array, as one function of the arrays it finds.

  The grid has 20 points. Point `t` loads rows `5000 t … 5000 t + 4999` of the aggregated means and of the
  features (block index `(t, 0)` of 5000 x 128 blocks), the two weight matrices and the bias whole (block index
  `(0, 0)`), and writes rows `5000 t … 5000 t + 4999` of the result. A layer's row `p` depends on row `p` of its
  row operands only, so what point `t` writes back is block `t` of ONE array: the layer of the whole arrays. The 20
  blocks cover the 100000 rows (row `r` is in block `r / 5000`), so the result array ends at that layer.
-/
import proofs.«110334_j17300128268562_1_alg».proof.Proof.Gen.KernelIdeal.Frame
import proofs.«110334_j17300128268562_1_alg».proof.Proof.Payload
import Idealize.ShloMosaic.Lib.Pipeline.Value
import Idealize.ShloMosaic.Lib.ValueIdx

noncomputable section

namespace Cert.KernelIdeal.Blocks0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: what its result array ends holding. -/
def G (c : Dev nD) : Cert.Sage.Mat 100000 128 :=
  Cert.Sage.layer (V c main_v24) (V c main_arg0) (V c main_arg2) (V c main_arg3) (rowOf (V c main_v25))

/-- The printed index maps over the grid: the row windows and the result are at block `(t, 0)`, the weights and
    the bias at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of block `t` is row `5000 t + r` of the array. -/
def rowAt (t : Fin cfg0.N) (r : Fin 5000) : Fin 100000 :=
  ⟨t.val * 5000 + r.val, by have h : t.val < 20 := lt_of_lt_of_eq t.isLt N_0; have := r.isLt; omega⟩

/-- WHAT POINT `t` WRITES BACK is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay0_eq]
  obtain ⟨e00, e01, e10, e11, e20, e21, e30, e31, e40, e41, e50, e51⟩ := idx_facts t
  -- each input block, read where its window's index map puts it
  have hA : (iblk0 V c 0 t : Vec Ideal S5000x128 .f32) = fun y => V c main_v24 (ix2 (rowAt t (y 0)) (y 1)) := by
    funext y
    show V c main_v24 (((cfg0.win 0).blk t).view.emb y) = _
    refine congrArg (V c main_v24) (funext fun a => Fin.ext ?_)
    match a with
    | ⟨0, _⟩ => show win0_0.index t (0 : Fin 2) * 5000 + 1 * (y 0).val = t.val * 5000 + (y 0).val; rw [e00]; omega
    | ⟨1, _⟩ => show win0_0.index t (1 : Fin 2) * 128 + 1 * (y 1).val = (y 1).val; rw [e01]; omega
  have hX : (iblk0 V c 1 t : Vec Ideal S5000x128 .f32) = fun y => V c main_arg0 (ix2 (rowAt t (y 0)) (y 1)) := by
    funext y
    show V c main_arg0 (((cfg0.win 1).blk t).view.emb y) = _
    refine congrArg (V c main_arg0) (funext fun a => Fin.ext ?_)
    match a with
    | ⟨0, _⟩ => show win0_1.index t (0 : Fin 2) * 5000 + 1 * (y 0).val = t.val * 5000 + (y 0).val; rw [e10]; omega
    | ⟨1, _⟩ => show win0_1.index t (1 : Fin 2) * 128 + 1 * (y 1).val = (y 1).val; rw [e11]; omega
  have hWl : (iblk0 V c 2 t : Vec Ideal S128x128 .f32) = V c main_arg2 := by
    funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; rw [e20]; omega
    | ⟨1, _⟩ => show win0_2.index t (1 : Fin 2) * 128 + 1 * (y 1).val = (y 1).val; rw [e21]; omega
  have hWr : (iblk0 V c 3 t : Vec Ideal S128x128 .f32) = V c main_arg3 := by
    funext y
    show V c main_arg3 (((cfg0.win 3).blk t).view.emb y) = V c main_arg3 y
    refine congrArg (V c main_arg3) (funext fun a => Fin.ext ?_)
    match a with
    | ⟨0, _⟩ => show win0_3.index t (0 : Fin 2) * 128 + 1 * (y 0).val = (y 0).val; rw [e30]; omega
    | ⟨1, _⟩ => show win0_3.index t (1 : Fin 2) * 128 + 1 * (y 1).val = (y 1).val; rw [e31]; omega
  have hB : (iblk0 V c 4 t : Vec Ideal S1x128 .f32) = V c main_v25 := by
    funext y
    show V c main_v25 (((cfg0.win 4).blk t).view.emb y) = V c main_v25 y
    refine congrArg (V c main_v25) (funext fun a => Fin.ext ?_)
    match a with
    | ⟨0, _⟩ => show win0_4.index t (0 : Fin 2) * 1 + 1 * (y 0).val = (y 0).val; rw [e40]; omega
    | ⟨1, _⟩ => show win0_4.index t (1 : Fin 2) * 128 + 1 * (y 1).val = (y 1).val; rw [e41]; omega
  rw [hA, hX, hWl, hWr, hB]
  funext j
  -- where the result block's entry sits in the array
  have h0 : rowAt t (j 0) = ((cfg0.win 5).blk t).view.emb j 0 :=
    Fin.ext (by show t.val * 5000 + (j 0).val = win0_5.index t (0 : Fin 2) * 5000 + 1 * (j 0).val; rw [e50]; omega)
  have h1 : j 1 = ((cfg0.win 5).blk t).view.emb j 1 :=
    Fin.ext (by show (j 1).val = win0_5.index t (1 : Fin 2) * 128 + 1 * (j 1).val; rw [e51]; omega)
  exact (Cert.Sage.layerAt_rows (rowAt t) (V c main_v24) (V c main_arg0) (V c main_arg2) (V c main_arg3) (rowOf (V c main_v25)) (j 0) (j 1)).trans
    (congrArg₂ (Cert.Sage.layerAt (V c main_v24) (V c main_arg0) (V c main_arg2) (V c main_arg3) (rowOf (V c main_v25))) h0 h1)

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Row `r` of the array is in the block of point `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  have ht : t.val = (i 0).val / 5000 := rfl
  obtain ⟨e00, e01, e10, e11, e20, e21, e30, e31, e40, e41, e50, e51⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e50, ht]; omega
  | ⟨1, _⟩ =>
    show win0_5.index t (1 : Fin 2) * 128 ≤ (i 1).val ∧ (i 1).val < win0_5.index t (1 : Fin 2) * 128 + 128
    rw [e51]; omega

/-- THE RESULT ARRAY after the region: the layer of the arrays it found. -/
theorem final (c : Dev nD) : (dat0 V c).arrAt 5 cfg0.N = G V c :=
  (dat0 V c).arrAt_eq_of_cover 5 (G V c) (fun t _ => flushed_eq V c t) cover

end Cert.KernelIdeal.Blocks0

end
-- ==== Proof.Blocks1.lean ====
/-
  The second region's result array, as one function of the arrays it finds.

  The grid has 20 points. Point `t` loads rows `5000 t … 5000 t + 4999` of the second aggregated means and of
  the first layer's result (block index `(t, 0)` of 5000 x 128 blocks), the two weight matrices, the bias, the
  128 x 64 matrix and its bias whole (block index `(0, 0)`), and writes rows `5000 t … 5000 t + 4999` of the
  100000 x 64 result. Both stages act row by row, so what point `t` writes back is block `t` of ONE array: the
  last stage of the layer of the whole arrays. The 20 blocks cover the 100000 rows.
-/
import proofs.«110334_j17300128268562_1_alg».proof.Proof.Gen.KernelIdeal.Frame
import proofs.«110334_j17300128268562_1_alg».proof.Proof.Payload
import Idealize.ShloMosaic.Lib.Pipeline.Value
import Idealize.ShloMosaic.Lib.ValueIdx

noncomputable section

namespace Cert.KernelIdeal.Blocks1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay

variable (V : (c : Dev nD) → (b : Ref sig .tc) → Buf (Elt Ideal) ((c : Thread nD τ).loc b))

theorem hz : (![0, 0] : Fin 2 → Nat) = fun _ => 0 := funext fun a => by fin_cases a <;> rfl

/-- The last stage of the layer of the arrays the region finds: what its result array ends holding. -/
def G (c : Dev nD) : Cert.Sage.Mat 100000 64 :=
  Cert.Sage.linear
    (Cert.Sage.layer (V c main_v38) (V c main_v26) (V c main_arg5) (V c main_arg6) (rowOf (V c main_v39)))
    (V c main_arg8) (rowOf (V c main_v40))

/-- The printed index maps over the grid: the row windows and the result are at block `(t, 0)`, every other
    window at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `r` of block `t` is row `5000 t + r` of the array. -/
def rowAt (t : Fin cfg1.N) (r : Fin 5000) : Fin 100000 :=
  ⟨t.val * 5000 + r.val, by have h : t.val < 20 := lt_of_lt_of_eq t.isLt N_1; have := r.isLt; omega⟩

/-- WHAT POINT `t` WRITES BACK is block `t` of the last stage of the layer of the whole arrays. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz]
  rw [pay1_eq]
  obtain ⟨e00, e01, e10, e11, e20, e21, e30, e31, e40, e41, e50, e51, e60, e61, e70, e71⟩ := idx_facts t
  -- each input block, read where its window's index map puts it
  have h0 : (iblk1 V c 0 t : Vec Ideal S5000x128 .f32) = fun y => V c main_v38 (ix2 (rowAt t (y 0)) (y 1)) := by
    funext y
    show V c main_v38 (((cfg1.win 0).blk t).view.emb y) = _
    refine congrArg (V c main_v38) (funext fun a => Fin.ext ?_)
    match a with
    | ⟨0, _⟩ => show win1_0.index t (0 : Fin 2) * 5000 + 1 * (y 0).val = t.val * 5000 + (y 0).val; rw [e00]; omega
    | ⟨1, _⟩ => show win1_0.index t (1 : Fin 2) * 128 + 1 * (y 1).val = (y 1).val; rw [e01]; omega
  have h1 : (iblk1 V c 1 t : Vec Ideal S5000x128 .f32) = fun y => V c main_v26 (ix2 (rowAt t (y 0)) (y 1)) := by
    funext y
    show V c main_v26 (((cfg1.win 1).blk t).view.emb y) = _
    refine congrArg (V c main_v26) (funext fun a => Fin.ext ?_)
    match a with
    | ⟨0, _⟩ => show win1_1.index t (0 : Fin 2) * 5000 + 1 * (y 0).val = t.val * 5000 + (y 0).val; rw [e10]; omega
    | ⟨1, _⟩ => show win1_1.index t (1 : Fin 2) * 128 + 1 * (y 1).val = (y 1).val; rw [e11]; omega
  have h2 : (iblk1 V c 2 t : Vec Ideal S128x128 .f32) = V c main_arg5 := by
    funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; rw [e20]; omega
    | ⟨1, _⟩ => show win1_2.index t (1 : Fin 2) * 128 + 1 * (y 1).val = (y 1).val; rw [e21]; omega
  have h3 : (iblk1 V c 3 t : Vec Ideal S128x128 .f32) = V c main_arg6 := by
    funext y
    show V c main_arg6 (((cfg1.win 3).blk t).view.emb y) = V c main_arg6 y
    refine congrArg (V c main_arg6) (funext fun a => Fin.ext ?_)
    match a with
    | ⟨0, _⟩ => show win1_3.index t (0 : Fin 2) * 128 + 1 * (y 0).val = (y 0).val; rw [e30]; omega
    | ⟨1, _⟩ => show win1_3.index t (1 : Fin 2) * 128 + 1 * (y 1).val = (y 1).val; rw [e31]; omega
  have h4 : (iblk1 V c 4 t : Vec Ideal S1x128 .f32) = V c main_v39 := by
    funext y
    show V c main_v39 (((cfg1.win 4).blk t).view.emb y) = V c main_v39 y
    refine congrArg (V c main_v39) (funext fun a => Fin.ext ?_)
    match a with
    | ⟨0, _⟩ => show win1_4.index t (0 : Fin 2) * 1 + 1 * (y 0).val = (y 0).val; rw [e40]; omega
    | ⟨1, _⟩ => show win1_4.index t (1 : Fin 2) * 128 + 1 * (y 1).val = (y 1).val; rw [e41]; omega
  have h5 : (iblk1 V c 5 t : Vec Ideal S128x64 .f32) = V c main_arg8 := by
    funext y
    show V c main_arg8 (((cfg1.win 5).blk t).view.emb y) = V c main_arg8 y
    refine congrArg (V c main_arg8) (funext fun a => Fin.ext ?_)
    match a with
    | ⟨0, _⟩ => show win1_5.index t (0 : Fin 2) * 128 + 1 * (y 0).val = (y 0).val; rw [e50]; omega
    | ⟨1, _⟩ => show win1_5.index t (1 : Fin 2) * 64 + 1 * (y 1).val = (y 1).val; rw [e51]; omega
  have h6 : (iblk1 V c 6 t : Vec Ideal S1x64 .f32) = V c main_v40 := by
    funext y
    show V c main_v40 (((cfg1.win 6).blk t).view.emb y) = V c main_v40 y
    refine congrArg (V c main_v40) (funext fun a => Fin.ext ?_)
    match a with
    | ⟨0, _⟩ => show win1_6.index t (0 : Fin 2) * 1 + 1 * (y 0).val = (y 0).val; rw [e60]; omega
    | ⟨1, _⟩ => show win1_6.index t (1 : Fin 2) * 64 + 1 * (y 1).val = (y 1).val; rw [e61]; omega
  rw [h0, h1, h2, h3, h4, h5, h6]
  funext j
  -- where the result block's entry sits in the array
  have hr : rowAt t (j 0) = ((cfg1.win 7).blk t).view.emb j 0 :=
    Fin.ext (by show t.val * 5000 + (j 0).val = win1_7.index t (0 : Fin 2) * 5000 + 1 * (j 0).val; rw [e70]; omega)
  have hc : j 1 = ((cfg1.win 7).blk t).view.emb j 1 :=
    Fin.ext (by show (j 1).val = win1_7.index t (1 : Fin 2) * 64 + 1 * (j 1).val; rw [e71]; omega)
  have hl : Cert.Sage.layer (fun y : S5000x128.Idx => V c main_v38 (ix2 (rowAt t (y 0)) (y 1)))
        (fun y : S5000x128.Idx => V c main_v26 (ix2 (rowAt t (y 0)) (y 1))) (V c main_arg5) (V c main_arg6) (rowOf (V c main_v39))
      = fun y : S5000x128.Idx => Cert.Sage.layer (V c main_v38) (V c main_v26) (V c main_arg5) (V c main_arg6) (rowOf (V c main_v39))
          (ix2 (rowAt t (y 0)) (y 1)) := rfl
  refine (congrArg (fun H : Cert.Sage.Mat 5000 128 =>
    Cert.Sage.linearAt H (V c main_arg8) (rowOf (V c main_v40)) (j 0) (j 1)) hl).trans ?_
  exact (Cert.Sage.linearAt_rows (rowAt t)
      (Cert.Sage.layer (V c main_v38) (V c main_v26) (V c main_arg5) (V c main_arg6) (rowOf (V c main_v39)))
      (V c main_arg8) (rowOf (V c main_v40)) (j 0) (j 1)).trans
    (congrArg₂ (Cert.Sage.linearAt
      (Cert.Sage.layer (V c main_v38) (V c main_v26) (V c main_arg5) (V c main_arg6) (rowOf (V c main_v39)))
      (V c main_arg8) (rowOf (V c main_v40))) hr hc)

/-- An index of the array is in point `t`'s block iff each coordinate is in the block's range on its axis. -/
theorem mem_blk (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v41).slice (win1_7.rect t)).set ↔ _
  rw [View.set_slice_whole, Rect.mem_set_unit]
  exact Iff.rfl

/-- Row `r` of the array is in the block of point `r / 5000`. -/
theorem cover (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  let t : Fin cfg1.N := ⟨(i 0).val / 5000, lt_of_lt_of_eq (by omega : (i 0).val / 5000 < 20) N_1.symm⟩
  have ht : t.val = (i 0).val / 5000 := rfl
  obtain ⟨e00, e01, e10, e11, e20, e21, e30, e31, e40, e41, e50, e51, e60, e61, e70, e71⟩ := idx_facts t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    rw [e70, ht]; omega
  | ⟨1, _⟩ =>
    show win1_7.index t (1 : Fin 2) * 64 ≤ (i 1).val ∧ (i 1).val < win1_7.index t (1 : Fin 2) * 64 + 64
    rw [e71]; omega

/-- THE RESULT ARRAY after the region: the last stage of the layer of the arrays it found. -/
theorem final (c : Dev nD) : (dat1 V c).arrAt 7 cfg1.N = G V c :=
  (dat1 V c).arrAt_eq_of_cover 7 (G V c) (fun t _ => flushed_eq V c t) cover

end Cert.KernelIdeal.Blocks1

end
-- ==== Proof.HostSide.lean ====
/-
  The host operations around the two regions, read back.

  Before the first region the program slices the edge list into its two rows, computes from the second row a
  column of scale factors, gathers rows of the features by the first row, scatter-adds them by the second and
  scales: the aggregation `agg` of the features. It also lays the first bias out as a 1 x 128 array. Between the
  regions it does the same to the first region's result, reading again the two index rows and the scale column it
  computed before, and lays out the other two biases. None of these operations is opened: each array is named as
  the composition the program states, so that the two aggregations are ONE function of the feature matrix.
-/
import proofs.«110334_j17300128268562_1_alg».proof.Proof.Gen.KernelIdeal.Frame
import Idealize.ShloMosaic.Lib.StableHlo.Run
import Idealize.ShloMosaic.PureOps.Ideal

noncomputable section

namespace Cert.KernelIdeal.HostSide

open Idealize.ShloMosaic Idealize.ShloMosaic.TcCoe Idealize.SL.Sem Idealize.ShloMosaic.StableHlo
open Cert.KernelIdeal Cert.KernelIdeal.Gen

/-- Row 0 of the edge list, as a vector. -/
def src (e : IVec S2x1600000 32) : IVec S1600000 32 :=
  shapeCast S1600000 (extractStridedSlice S1x1600000 ![0, 0] e Facts₀.slices_S2x1600000_S1x1600000_0_0)
    Facts₀.shapeCasts_S1x1600000_S1600000

/-- Row 1 of the edge list, as a vector. -/
def dst (e : IVec S2x1600000 32) : IVec S1600000 32 :=
  shapeCast S1600000 (extractStridedSlice S1x1600000 ![1, 0] e Facts₀.slices_S2x1600000_S1x1600000_1_0)
    Facts₀.shapeCasts_S1x1600000_S1600000

/-- The column of scale factors the program computes from row 1 of the edge list: one over the larger of one and
    the scatter-add of ones by that row. -/
def scale (e : IVec S2x1600000 32) : FVec Ideal S100000x1 .f32 :=
  broadcastInDim S100000x1 ![0] Facts₀.bcast_S100000_S100000x1_0
    (Host.divf (F := Ideal) (broadcastInDim S100000 ![] Facts₀.bcast_S_S100000 (constant (F := Ideal) S_ .f32 0x3F800000#32))
      (maximumf (F := Ideal)
        (Host.scatterAdd (F := Ideal) scatter_S100000_S1600000x1_S1600000_n_0_0_1
          (broadcastInDim S100000 ![] Facts₀.bcast_S_S100000 (constant (F := Ideal) S_ .f32 0x00000000#32))
          (broadcastInDim S1600000x1 ![0] Facts₀.bcast_S1600000_S1600000x1_0 (dst e))
          (broadcastInDim S1600000 ![] Facts₀.bcast_S_S1600000 (constant (F := Ideal) S_ .f32 0x3F800000#32)))
        (broadcastInDim S100000 ![] Facts₀.bcast_S_S100000 (constant (F := Ideal) S_ .f32 0x3F800000#32))))

/-- The aggregation from its three index and scale arrays: the gather of `h` at the first index vector (with the
    program's select between it and itself plus 100000), the scatter-add of that into a zero array at the second,
    the product with the broadcast scale column. -/
def aggOf (s d : IVec S1600000 32) (sc : FVec Ideal S100000x1 .f32) (h : FVec Ideal S100000x128 .f32) :
    FVec Ideal S100000x128 .f32 :=
  mulf (F := Ideal) (φ := .f32)
    (Host.scatterAdd (F := Ideal) scatter_S100000x128_S1600000x1_S1600000x128_1_0_0_1
      (broadcastInDim S100000x128 ![] Facts₀.bcast_S_S100000x128 (constant (F := Ideal) S_ .f32 0x00000000#32))
      (broadcastInDim S1600000x1 ![0] Facts₀.bcast_S1600000_S1600000x1_0 d)
      (Host.gather gather_S100000x128_S1600000x1_S1600000x128_1_0_n_n_0_1_1128 h
        (broadcastInDim S1600000x1 ![0] Facts₀.bcast_S1600000_S1600000x1_0
          (select (cmpi .slt s (broadcastInDim S1600000 ![] Facts₀.bcast_S_S1600000 (constantI S_ 32 0#32)))
            (addi s (broadcastInDim S1600000 ![] Facts₀.bcast_S_S1600000 (constantI S_ 32 100000#32))) s))))
    (broadcastInDim S100000x128 ![0, 1] Facts₀.bcast_S100000x1_S100000x128_0_1 sc)

/-- The aggregation of a feature matrix along an edge list. -/
def agg (e : IVec S2x1600000 32) (h : FVec Ideal S100000x128 .f32) : FVec Ideal S100000x128 .f32 :=
  aggOf (src e) (dst e) (scale e) h

variable (m : (ℓ : Loc nD τ sig) → Buf (Elt Ideal) ℓ) (ρ : Dev nD → PrngReg)

/-! ## Before the first region -/

theorem W1_v1 (c : Dev nD) : W1 m ρ c (Proc.devRef .tc main_v1) = src (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dst (m ((c : Thread nD τ).loc main_arg1)) := by
  show StableHlo.after hostOps0 (W0 m ρ c) (Proc.devRef .tc main_v3) = _
  after_results
  rfl

theorem W1_v12 (c : Dev nD) : W1 m ρ c (Proc.devRef .tc main_v12) = scale (m ((c : Thread nD τ).loc main_arg1)) := by
  show StableHlo.after hostOps0 (W0 m ρ c) (Proc.devRef .tc main_v12) = _
  after_results
  rfl

set_option maxHeartbeats 8000000 in
theorem W1_v24 (c : Dev nD) : W1 m ρ c (Proc.devRef .tc main_v24)
    = agg (m ((c : Thread nD τ).loc main_arg1)) (m ((c : Thread nD τ).loc main_arg0)) := by
  show StableHlo.after hostOps0 (W0 m ρ c) (Proc.devRef .tc main_v24) = _
  after_results_simp
  rfl

theorem W1_v25 (c : Dev nD) : W1 m ρ c (Proc.devRef .tc main_v25)
    = shapeCast S1x128 (m ((c : Thread nD τ).loc main_arg4)) Facts₀.shapeCasts_S128_S1x128 := by
  show StableHlo.after hostOps0 (W0 m ρ c) (Proc.devRef .tc main_v25) = _
  after_results
  rfl

/-- No operation of the literal list writes the buffer: decided operation by operation. -/
local macro "unwritten" ops:ident : tactic =>
  `(tactic| (refine List.forall_iff_forall_mem.mp ?_
             simp only [$ops:ident, List.flatten_cons, List.flatten_nil, List.append_nil, List.cons_append, List.nil_append,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A buffer the first stretch does not write holds its launch contents at the first region's entry. -/
theorem W1_of_unwritten (c : Dev nD) (b : Ref sig .tc)
    (h : ∀ op ∈ (hostOps0 : List (HloOp τ sig (Elt Ideal))), (Proc.devRef .tc b : DevRef τ sig) ∉ op.writes) :
    W1 m ρ c (Proc.devRef .tc b) = m ((c : Thread nD τ).loc b) :=
  StableHlo.after_of_forall_not_mem (b := Proc.devRef .tc b) _ _ h

theorem W1_arg0 (c : Dev nD) : W1 m ρ c (Proc.devRef .tc main_arg0) = m ((c : Thread nD τ).loc main_arg0) :=
  W1_of_unwritten m ρ c main_arg0 (by unwritten hostOps0)
theorem W1_arg2 (c : Dev nD) : W1 m ρ c (Proc.devRef .tc main_arg2) = m ((c : Thread nD τ).loc main_arg2) :=
  W1_of_unwritten m ρ c main_arg2 (by unwritten hostOps0)
theorem W1_arg3 (c : Dev nD) : W1 m ρ c (Proc.devRef .tc main_arg3) = m ((c : Thread nD τ).loc main_arg3) :=
  W1_of_unwritten m ρ c main_arg3 (by unwritten hostOps0)

/-! ## Between the regions -/

/-- A buffer the second stretch does not write holds at the second region's entry what the first region left. -/
theorem W3_of_unwritten (c : Dev nD) (b : Ref sig .tc)
    (h : ∀ op ∈ (hostOps1 : List (HloOp τ sig (Elt Ideal))), (Proc.devRef .tc b : DevRef τ sig) ∉ op.writes) :
    W3 m ρ c (Proc.devRef .tc b) = W2 m ρ c (Proc.devRef .tc b) :=
  StableHlo.after_of_forall_not_mem (b := Proc.devRef .tc b) _ _ h

/-- The first region's result array is still there at the second region's entry. -/
theorem W3_v26 (c : Dev nD) : W3 m ρ c (Proc.devRef .tc main_v26) = W2 m ρ c (Proc.devRef .tc main_v26) :=
  W3_of_unwritten m ρ c main_v26 (by unwritten hostOps1)

/-- An argument neither stretch writes and the first region does not stage holds its launch contents at the second
    region's entry. -/
theorem W3_arg5 (c : Dev nD) : W3 m ρ c (Proc.devRef .tc main_arg5) = m ((c : Thread nD τ).loc main_arg5) :=
  (W3_of_unwritten m ρ c main_arg5 (by unwritten hostOps1)).trans
    ((W2_of_ne m ρ c main_arg5 (by decide)).trans (W1_of_unwritten m ρ c main_arg5 (by unwritten hostOps0)))
theorem W3_arg6 (c : Dev nD) : W3 m ρ c (Proc.devRef .tc main_arg6) = m ((c : Thread nD τ).loc main_arg6) :=
  (W3_of_unwritten m ρ c main_arg6 (by unwritten hostOps1)).trans
    ((W2_of_ne m ρ c main_arg6 (by decide)).trans (W1_of_unwritten m ρ c main_arg6 (by unwritten hostOps0)))
theorem W3_arg8 (c : Dev nD) : W3 m ρ c (Proc.devRef .tc main_arg8) = m ((c : Thread nD τ).loc main_arg8) :=
  (W3_of_unwritten m ρ c main_arg8 (by unwritten hostOps1)).trans
    ((W2_of_ne m ρ c main_arg8 (by decide)).trans (W1_of_unwritten m ρ c main_arg8 (by unwritten hostOps0)))

set_option maxHeartbeats 8000000 in
/-- The second aggregation is `agg` of what the first region left in its result array: the second stretch reads
    again the two index rows and the scale column the first stretch computed. -/
theorem W3_v38 (c : Dev nD) : W3 m ρ c (Proc.devRef .tc main_v38)
    = agg (m ((c : Thread nD τ).loc main_arg1)) (W2 m ρ c (Proc.devRef .tc main_v26)) := by
  show StableHlo.after hostOps1 (W2 m ρ c) (Proc.devRef .tc main_v38) = _
  after_results_simp
  rw [W2_of_ne m ρ c main_v1 (by decide), W2_of_ne m ρ c main_v3 (by decide), W2_of_ne m ρ c main_v12 (by decide),
    W1_v1, W1_v3, W1_v12]
  rfl

theorem W3_v39 (c : Dev nD) : W3 m ρ c (Proc.devRef .tc main_v39)
    = shapeCast S1x128 (m ((c : Thread nD τ).loc main_arg7)) Facts₀.shapeCasts_S128_S1x128 := by
  show StableHlo.after hostOps1 (W2 m ρ c) (Proc.devRef .tc main_v39) = _
  after_results
  rw [W2_of_ne m ρ c main_arg7 (by decide), W1_of_unwritten m ρ c main_arg7 (by unwritten hostOps0)]
  rfl

theorem W3_v40 (c : Dev nD) : W3 m ρ c (Proc.devRef .tc main_v40)
    = shapeCast S1x64 (m ((c : Thread nD τ).loc main_arg9)) Facts₀.shapeCasts_S64_S1x64 := by
  show StableHlo.after hostOps1 (W2 m ρ c) (Proc.devRef .tc main_v40) = _
  after_results
  rw [W2_of_ne m ρ c main_arg9 (by decide), W1_of_unwritten m ρ c main_arg9 (by unwritten hostOps0)]
  rfl

end Cert.KernelIdeal.HostSide

end
-- ==== Proof.KernelRun.lean ====
/-
  The kernel program's run, with its result.

  The first region's result array is one layer of the aggregated features and the features; the second stretch of
  host operations aggregates that array by the same function; the second region's result array is the last stage
  of the layer of that aggregation and the first layer's result. So the program's result is the network
  `Cert.Sage.net` of its arguments over its own aggregation `agg` of an edge list — and every weakly fair execution
  ends with the result buffer at that array and the argument arrays as launched.
-/
import proofs.«110334_j17300128268562_1_alg».proof.Proof.Gen.KernelIdeal.Frame
import proofs.«110334_j17300128268562_1_alg».proof.Proof.Blocks0
import proofs.«110334_j17300128268562_1_alg».proof.Proof.Blocks1
import proofs.«110334_j17300128268562_1_alg».proof.Proof.HostSide
import Idealize.ShloMosaic.Lib.ValueLayout

noncomputable section

namespace Cert.KernelIdeal.Result

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Pay Cert.KernelIdeal.HostSide

local notation "𝕄" => MT nD τ sig Unit (Elt Ideal) ℕ (UR sig nD τ) ℕ

variable (m : (ℓ : Loc nD τ sig) → Buf (Elt Ideal) ℓ) (ρ : Dev nD → PrngReg)

/-- A vector laid out as a 1 x n array and read back in its one row is the vector. -/
theorem rowOf_shapeCast {n : Nat} (b : (⟨1, ![n]⟩ : Shape).Idx → EReal)
    (h : (⟨1, ![n]⟩ : Shape).ShapeCasts ⟨2, ![1, n]⟩) : rowOf (shapeCast ⟨2, ![1, n]⟩ b h) = b := by
  funext j
  rw [eq_ix1 j]
  exact shapeCast_a_1a_apply b h (0 : Fin 1) (j 0)

/-! ## The first region -/

theorem V1_v24 (c : Dev nD) : V1 m ρ c main_v24
    = agg (m ((c : Thread nD τ).loc main_arg1)) (m ((c : Thread nD τ).loc main_arg0)) := W1_v24 m ρ c
theorem V1_arg0 (c : Dev nD) : V1 m ρ c main_arg0 = m ((c : Thread nD τ).loc main_arg0) := W1_arg0 m ρ c
theorem V1_arg2 (c : Dev nD) : V1 m ρ c main_arg2 = m ((c : Thread nD τ).loc main_arg2) := W1_arg2 m ρ c
theorem V1_arg3 (c : Dev nD) : V1 m ρ c main_arg3 = m ((c : Thread nD τ).loc main_arg3) := W1_arg3 m ρ c
theorem V1_v25 (c : Dev nD) : V1 m ρ c main_v25
    = shapeCast S1x128 (m ((c : Thread nD τ).loc main_arg4)) Facts₀.shapeCasts_S128_S1x128 := W1_v25 m ρ c

/-- The first layer's result, as a function of the arguments. -/
def hidden (c : Dev nD) : Cert.Sage.Mat 100000 128 :=
  Cert.Sage.layer (agg (m ((c : Thread nD τ).loc main_arg1)) (m ((c : Thread nD τ).loc main_arg0)))
    (m ((c : Thread nD τ).loc main_arg0)) (m ((c : Thread nD τ).loc main_arg2)) (m ((c : Thread nD τ).loc main_arg3))
    (m ((c : Thread nD τ).loc main_arg4))

theorem G0_eq (c : Dev nD) : Blocks0.G (V1 m ρ) c = hidden m c := by
  unfold Blocks0.G hidden
  rw [V1_v24, V1_arg0, V1_arg2, V1_arg3, V1_v25, rowOf_shapeCast]

/-- What the first region leaves in its result array. -/
theorem W2_v26 (c : Dev nD) : W2 m ρ c (Proc.devRef .tc main_v26) = hidden m c :=
  (W2_arr m ρ c 5).trans ((Blocks0.final (V1 m ρ) c).trans (G0_eq m ρ c))

/-! ## The second region -/

theorem V3_v38 (c : Dev nD) : V3 m ρ c main_v38 = agg (m ((c : Thread nD τ).loc main_arg1)) (hidden m c) :=
  (W3_v38 m ρ c).trans (congrArg (agg (m ((c : Thread nD τ).loc main_arg1))) (W2_v26 m ρ c))
theorem V3_v26 (c : Dev nD) : V3 m ρ c main_v26 = hidden m c := (W3_v26 m ρ c).trans (W2_v26 m ρ c)
theorem V3_arg5 (c : Dev nD) : V3 m ρ c main_arg5 = m ((c : Thread nD τ).loc main_arg5) := W3_arg5 m ρ c
theorem V3_arg6 (c : Dev nD) : V3 m ρ c main_arg6 = m ((c : Thread nD τ).loc main_arg6) := W3_arg6 m ρ c
theorem V3_arg8 (c : Dev nD) : V3 m ρ c main_arg8 = m ((c : Thread nD τ).loc main_arg8) := W3_arg8 m ρ c
theorem V3_v39 (c : Dev nD) : V3 m ρ c main_v39
    = shapeCast S1x128 (m ((c : Thread nD τ).loc main_arg7)) Facts₀.shapeCasts_S128_S1x128 := W3_v39 m ρ c
theorem V3_v40 (c : Dev nD) : V3 m ρ c main_v40
    = shapeCast S1x64 (m ((c : Thread nD τ).loc main_arg9)) Facts₀.shapeCasts_S64_S1x64 := W3_v40 m ρ c

/-- The program's result, as a function of the arguments: the network over the program's aggregation. -/
def out (c : Dev nD) : Cert.Sage.Mat 100000 64 :=
  Cert.Sage.net (agg (m ((c : Thread nD τ).loc main_arg1))) (m ((c : Thread nD τ).loc main_arg0)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9))

theorem G1_eq (c : Dev nD) : Blocks1.G (V3 m ρ) c = out m c := by
  unfold Blocks1.G out Cert.Sage.net
  rw [V3_v38, V3_v26, V3_arg5, V3_arg6, V3_arg8, V3_v39, V3_v40, rowOf_shapeCast, rowOf_shapeCast]
  rfl

/-- What the second region leaves in the result array. -/
theorem W4_v41 (c : Dev nD) : W4 m ρ c (Proc.devRef .tc main_v41) = out m c :=
  (W4_arr m ρ c 7).trans ((Blocks1.final (V3 m ρ) c).trans (G1_eq m ρ c))

/-! ## The run -/

-- the launch theorem's implicit arguments are found by unifying its conclusion with this one, which takes unfolding
-- plain definitions in a metavariable's type
set_option backward.isDefEq.respectTransparency.types false in
/-- Every weakly fair execution of @main from any memory with zero counters terminates, nothing faulting, with the
    result buffer at the network of the arguments and every argument array as launched. -/
theorem run : θ_run defs (onTc (τ := τ) (main (F := Ideal))) ⟨m, fun _ => 0, ρ⟩ (fun r => ∀ c : Dev nD,
      r.2.mem ((c.tc : Thread nD τ).loc main_v41) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v41 (by decide))).trans (W4_v41 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Result

end
-- ==== Proof.lean ====
/-
  Two layers of mean-aggregation graph convolution and a linear read-out, tiled against untiled.

  Both programs take node features `x` (100000 x 128), an edge list (2 x 1600000), two pairs of 128 x 128 weight
  matrices with their biases and a 128 x 64 read-out matrix with its bias, and compute

      h1  = max (agg x  · W1l + x  · W1r + b1) 0
      h2  = max (agg h1 · W2l + h1 · W2r + b2) 0
      out = h2 · Wlin + blin

  where `agg h` gathers rows of `h` along the edges, adds them into the edges' targets and scales each row. The
  aggregation is done by the SAME host operations in both programs, applied to the same operands, so it is never
  opened: it enters as one function of the feature matrix. The kernel program computes each layer 5000 rows at a
  time (twenty grid points per layer, the second layer fused with the read-out); the reference computes each
  product over all 100000 rows at once. On the extended reals a change of float format is the identity and a
  product into a zero accumulator is the plain sum over the contracted index, and a layer's row depends on the
  same row of its operands only, so the twenty blocks of rows are the rows of one array: no sum is regrouped, no
  factor moved, and no entry needs to be finite.

  `frame` for the two kernel programs is their generated frame; for the reference it is its generated run with the
  result dropped. The idealization rewrote nothing, so `preserves` is trivial. `algebraic`: the kernel program's run
  ends at the network over its aggregation (Proof/KernelRun.lean), the reference's at the network over its own
  (Proof/RefSpec.lean), and the two aggregations are one function (`agg_eq`).
-/
import proofs.«110334_j17300128268562_1_alg».proof.Defs
import proofs.«110334_j17300128268562_1_alg».proof.Proof.Gen.Kernel
import proofs.«110334_j17300128268562_1_alg».proof.Proof.Gen.Kernel.Skeleton
import proofs.«110334_j17300128268562_1_alg».proof.Proof.Gen.Kernel.Launch
import proofs.«110334_j17300128268562_1_alg».proof.Proof.Gen.Kernel.Points
import proofs.«110334_j17300128268562_1_alg».proof.Proof.Gen.Kernel.Frame
import proofs.«110334_j17300128268562_1_alg».proof.Proof.Gen.KernelIdeal
import proofs.«110334_j17300128268562_1_alg».proof.Proof.Gen.KernelIdeal.Skeleton
import proofs.«110334_j17300128268562_1_alg».proof.Proof.Gen.KernelIdeal.Launch
import proofs.«110334_j17300128268562_1_alg».proof.Proof.Gen.KernelIdeal.Points
import proofs.«110334_j17300128268562_1_alg».proof.Proof.Gen.KernelIdeal.Frame
import proofs.«110334_j17300128268562_1_alg».proof.Proof.Gen.ReferenceIdeal
import proofs.«110334_j17300128268562_1_alg».proof.Proof.Gen.Pre_finite_inputs
import proofs.«110334_j17300128268562_1_alg».proof.Proof.Gen.ReferenceIdeal.Run
import proofs.«110334_j17300128268562_1_alg».proof.Proof.Gen.ReferenceIdeal.Read
import proofs.«110334_j17300128268562_1_alg».proof.Proof.RefSpec
import proofs.«110334_j17300128268562_1_alg».proof.Proof.KernelRun
import Idealize.ShloMosaic.Adequacy
import Idealize.ShloMosaic.Init

noncomputable section

namespace Cert.Proof

open Idealize.ShloMosaic Idealize.ShloMosaic.TcCoe Idealize.SL.Sem

/-- The two programs' aggregations are one function of the edge list and the feature matrix: the same host
    operations, with the same dimension records, composed in the same order. -/
theorem agg_eq (e : IVec Cert.KernelIdeal.S2x1600000 32) (h : FVec Ideal Cert.KernelIdeal.S100000x128 .f32) :
    Cert.KernelIdeal.HostSide.agg e h = Cert.ReferenceIdeal.RefSpec.agg e h := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the network of the arguments in their result
    buffers, over aggregations that are one function. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v54_eq, Cert.ReferenceIdeal.RefSpec.result_eq, a0, a1, a2, a3, a4, a5, a6, a7, a8, a9]
  unfold Cert.KernelIdeal.Result.out
  exact congrArg (fun f => Cert.Sage.net f _ _ _ _ _ _ _ _ _) (funext fun h => (agg_eq _ h).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
